-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v28)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v28) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S200000 : Shape := ⟨1, ![200000]⟩
abbrev S1000000 : Shape := ⟨1, ![1000000]⟩
abbrev S500 : Shape := ⟨1, ![500]⟩
abbrev S12800000 : Shape := ⟨1, ![12800000]⟩
abbrev S_ : Shape := ⟨0, ![]⟩

class Facts : Prop where
  bcast_S_S200000 : S_.BroadcastsInDim S200000 (![] : Fin 0 → Fin S200000.rank)
  reducesTo_S200000_S_d0 : S200000.ReducesTo [0] S_
  h_S_ : 0 < S_.numel
  bcast_S_S1000000 : S_.BroadcastsInDim S1000000 (![] : Fin 0 → Fin S1000000.rank)
  reducesTo_S1000000_S_d0 : S1000000.ReducesTo [0] S_
  bcast_S_S500 : S_.BroadcastsInDim S500 (![] : Fin 0 → Fin S500.rank)
  reducesTo_S500_S_d0 : S500.ReducesTo [0] S_

variable [Facts]

def fn {F : FTy → Type} [FloatOps F] (main_arg0 : FVec F S200000 .f32) (main_arg1 : FVec F S1000000 .f32) (main_arg2 : FVec F S500 .f32) (main_arg3 : IVec S12800000 32) (main_arg4 : IVec S12800000 32) (main_arg5 : IVec S12800000 32) (main_arg6 : IVec S200000 32) : IVec S_ 1 :=
  let main_v0 : FVec F S200000 .f32 := Host.absf main_arg0
  let main_cst : FVec F S_ .f32 := constant S_ .f32 0x7F800000#32
  let main_v1 : FVec F S200000 .f32 := broadcastInDim S200000 ![] bcast_S_S200000 main_cst
  let main_v2 : IVec S200000 1 := cmpf .olt main_v0 main_v1
  let main_c : IVec S_ 1 := constantI S_ 1 1#1
  let main_v3 : IVec S_ 1 := (fun x v => Host.reduce IntOp.andi x v reducesTo_S200000_S_d0 h_S_) main_v2 main_c
  let main_v4 : FVec F S1000000 .f32 := Host.absf main_arg1
  let main_cst_0 : FVec F S_ .f32 := constant S_ .f32 0x7F800000#32
  let main_v5 : FVec F S1000000 .f32 := broadcastInDim S1000000 ![] bcast_S_S1000000 main_cst_0
  let main_v6 : IVec S1000000 1 := cmpf .olt main_v4 main_v5
  let main_c_1 : IVec S_ 1 := constantI S_ 1 1#1
  let main_v7 : IVec S_ 1 := (fun x v => Host.reduce IntOp.andi x v reducesTo_S1000000_S_d0 h_S_) main_v6 main_c_1
  let main_v8 : IVec S_ 1 := andi main_v3 main_v7
  let main_v9 : FVec F S500 .f32 := Host.absf main_arg2
  let main_cst_2 : FVec F S_ .f32 := constant S_ .f32 0x7F800000#32
  let main_v10 : FVec F S500 .f32 := broadcastInDim S500 ![] bcast_S_S500 main_cst_2
  let main_v11 : IVec S500 1 := cmpf .olt main_v9 main_v10
  let main_c_3 : IVec S_ 1 := constantI S_ 1 1#1
  let main_v12 : IVec S_ 1 := (fun x v => Host.reduce IntOp.andi x v reducesTo_S500_S_d0 h_S_) main_v11 main_c_3
  let main_v13 : IVec S_ 1 := andi main_v8 main_v12
  main_v13
-- ==== Kernel.lean ====
abbrev S200000 : Shape := ⟨1, ![200000]⟩
abbrev S1000000 : Shape := ⟨1, ![1000000]⟩
abbrev S500 : Shape := ⟨1, ![500]⟩
abbrev S12800000 : Shape := ⟨1, ![12800000]⟩
abbrev S_ : Shape := ⟨0, ![]⟩
abbrev S12800000x1 : Shape := ⟨2, ![12800000, 1]⟩
abbrev S100000x128 : Shape := ⟨2, ![100000, 128]⟩
abbrev S10000x128 : Shape := ⟨2, ![10000, 128]⟩
abbrev S200000x1 : Shape := ⟨2, ![200000, 1]⟩

abbrev nBuf : Space → Nat
  | .hbm => 43
  | .vmem => 6
  | .smem => 0
  | _ => 0

abbrev bufTy : (tb : Table) → Fin (tcTables nBuf tb) → BufTy
  | .hbm, ⟨0, _⟩ => ⟨S200000, .f32⟩
  | .hbm, ⟨1, _⟩ => ⟨S1000000, .f32⟩
  | .hbm, ⟨2, _⟩ => ⟨S500, .f32⟩
  | .hbm, ⟨3, _⟩ => ⟨S12800000, .i32⟩
  | .hbm, ⟨4, _⟩ => ⟨S12800000, .i32⟩
  | .hbm, ⟨5, _⟩ => ⟨S12800000, .i32⟩
  | .hbm, ⟨6, _⟩ => ⟨S200000, .i32⟩
  | .hbm, ⟨7, _⟩ => ⟨S_, .i32⟩
  | .hbm, ⟨8, _⟩ => ⟨S12800000, .i32⟩
  | .hbm, ⟨9, _⟩ => ⟨S12800000, .i1⟩
  | .hbm, ⟨10, _⟩ => ⟨S_, .i32⟩
  | .hbm, ⟨11, _⟩ => ⟨S12800000, .i32⟩
  | .hbm, ⟨12, _⟩ => ⟨S12800000, .i32⟩
  | .hbm, ⟨13, _⟩ => ⟨S12800000, .i32⟩
  | .hbm, ⟨14, _⟩ => ⟨S12800000x1, .i32⟩
  | .hbm, ⟨15, _⟩ => ⟨S12800000, .f32⟩
  | .hbm, ⟨16, _⟩ => ⟨S_, .i32⟩
  | .hbm, ⟨17, _⟩ => ⟨S12800000, .i32⟩
  | .hbm, ⟨18, _⟩ => ⟨S12800000, .i1⟩
  | .hbm, ⟨19, _⟩ => ⟨S_, .i32⟩
  | .hbm, ⟨20, _⟩ => ⟨S12800000, .i32⟩
  | .hbm, ⟨21, _⟩ => ⟨S12800000, .i32⟩
  | .hbm, ⟨22, _⟩ => ⟨S12800000, .i32⟩
  | .hbm, ⟨23, _⟩ => ⟨S12800000x1, .i32⟩
  | .hbm, ⟨24, _⟩ => ⟨S12800000, .f32⟩
  | .hbm, ⟨25, _⟩ => ⟨S100000x128, .f32⟩
  | .hbm, ⟨26, _⟩ => ⟨S100000x128, .f32⟩
  | .hbm, ⟨27, _⟩ => ⟨S100000x128, .f32⟩
  | .hbm, ⟨28, _⟩ => ⟨S12800000, .f32⟩
  | .hbm, ⟨29, _⟩ => ⟨S_, .f32⟩
  | .hbm, ⟨30, _⟩ => ⟨S200000, .f32⟩
  | .hbm, ⟨31, _⟩ => ⟨S12800000x1, .i32⟩
  | .hbm, ⟨32, _⟩ => ⟨S200000, .f32⟩
  | .hbm, ⟨33, _⟩ => ⟨S_, .i32⟩
  | .hbm, ⟨34, _⟩ => ⟨S200000, .i32⟩
  | .hbm, ⟨35, _⟩ => ⟨S200000, .i1⟩
  | .hbm, ⟨36, _⟩ => ⟨S_, .i32⟩
  | .hbm, ⟨37, _⟩ => ⟨S200000, .i32⟩
  | .hbm, ⟨38, _⟩ => ⟨S200000, .i32⟩
  | .hbm, ⟨39, _⟩ => ⟨S200000, .i32⟩
  | .hbm, ⟨40, _⟩ => ⟨S200000x1, .i32⟩
  | .hbm, ⟨41, _⟩ => ⟨S200000, .f32⟩
  | .hbm, ⟨42, _⟩ => ⟨S200000, .f32⟩
  | .local _ .vmem, ⟨0, _⟩ => ⟨S10000x128, .f32⟩
  | .local _ .vmem, ⟨1, _⟩ => ⟨S10000x128, .f32⟩
  | .local _ .vmem, ⟨2, _⟩ => ⟨S10000x128, .f32⟩
  | .local _ .vmem, ⟨3, _⟩ => ⟨S10000x128, .f32⟩
  | .local _ .vmem, ⟨4, _⟩ => ⟨S10000x128, .f32⟩
  | .local _ .vmem, ⟨5, _⟩ => ⟨S10000x128, .f32⟩
  | _, _ => ⟨S200000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_c_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_c_1 : Ref sig .tc := ⟨.hbm, 16, rfl⟩
abbrev main_v7 : Ref sig .tc := ⟨.hbm, 17, rfl⟩
abbrev main_v8 : Ref sig .tc := ⟨.hbm, 18, rfl⟩
abbrev main_c_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_c_3 : Ref sig .tc := ⟨.hbm, 33, rfl⟩
abbrev main_v21 : Ref sig .tc := ⟨.hbm, 34, rfl⟩
abbrev main_v22 : Ref sig .tc := ⟨.hbm, 35, rfl⟩
abbrev main_c_4 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S10000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  bcast_S_S12800000 : S_.BroadcastsInDim S12800000 (![] : Fin 0 → Fin S12800000.rank)
  bcast_S12800000_S12800000x1_0 : S12800000.BroadcastsInDim S12800000x1 (![0] : Fin 1 → Fin S12800000x1.rank)
  shapeCasts_S12800000_S100000x128 : S12800000.ShapeCasts S100000x128
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  shapeCasts_S100000x128_S12800000 : S100000x128.ShapeCasts S12800000
  bcast_S_S200000 : S_.BroadcastsInDim S200000 (![] : Fin 0 → Fin S200000.rank)
  bcast_S200000_S200000x1_0 : S200000.BroadcastsInDim S200000x1 (![0] : Fin 1 → Fin S200000x1.rank)
  gather_S1000000_S12800000x1_S12800000_n_0_n_n_0_1_1_wf : GatherDims.WF S1000000 S12800000x1 S12800000 [] [0] [] [0] [] 1 ![1]
  gather_S200000_S12800000x1_S12800000_n_0_n_n_0_1_1_wf : GatherDims.WF S200000 S12800000x1 S12800000 [] [0] [] [0] [] 1 ![1]
  scatter_S200000_S12800000x1_S12800000_n_0_0_1_wf : ScatterDims.WF S200000 S12800000x1 S12800000 [] [0] [0] 1
  gather_S500_S200000x1_S200000_n_0_n_n_0_1_1_wf : GatherDims.WF S500 S200000x1 S200000 [] [0] [] [0] [] 1 ![1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x128.size a ≤ S100000x128.size a
  hwx0_1 : ∀ i : grid0.Coords, EltTy.bits .f32 = 32 ∨ (Rect.block (s := S100000x128) S10000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x128.size a ≤ S100000x128.size a
  hwx0_2 : ∀ i : grid0.Coords, EltTy.bits .f32 = 32 ∨ (Rect.block (s := S100000x128) S10000x128.size (cc0_transform_2 i) (hinb0_2 i)).WholeWords (EltTy.packing .f32)

variable [Facts₀]

def gather_S1000000_S12800000x1_S12800000_n_0_n_n_0_1_1 : GatherDims S1000000 S12800000x1 S12800000 where
  offsetDims := []
  collapsedSliceDims := [0]
  operandBatchingDims := []
  startIndicesBatchingDims := []
  startIndexMap := [0]
  indexVectorDim := 1
  sliceSizes := ![1]
  wf := gather_S1000000_S12800000x1_S12800000_n_0_n_n_0_1_1_wf
def gather_S200000_S12800000x1_S12800000_n_0_n_n_0_1_1 : GatherDims S200000 S12800000x1 S12800000 where
  offsetDims := []
  collapsedSliceDims := [0]
  operandBatchingDims := []
  startIndicesBatchingDims := []
  startIndexMap := [0]
  indexVectorDim := 1
  sliceSizes := ![1]
  wf := gather_S200000_S12800000x1_S12800000_n_0_n_n_0_1_1_wf
def scatter_S200000_S12800000x1_S12800000_n_0_0_1 : ScatterDims S200000 S12800000x1 S12800000 where
  updateWindowDims := []
  insertedWindowDims := [0]
  scatterDimsToOperandDims := [0]
  indexVectorDim := 1
  wf := scatter_S200000_S12800000x1_S12800000_n_0_0_1_wf
def gather_S500_S200000x1_S200000_n_0_n_n_0_1_1 : GatherDims S500 S200000x1 S200000 where
  offsetDims := []
  collapsedSliceDims := [0]
  operandBatchingDims := []
  startIndicesBatchingDims := []
  startIndexMap := [0]
  indexVectorDim := 1
  sliceSizes := ![1]
  wf := gather_S500_S200000x1_S200000_n_0_n_n_0_1_1_wf

abbrev win0_0 : Pipeline.Window sig grid0 :=
  Pipeline.Window.ofSpec (Memref.whole main_v14) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v15) S10000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v16) S10000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S200000 : Shape := ⟨1, ![200000]⟩
abbrev S1000000 : Shape := ⟨1, ![1000000]⟩
abbrev S500 : Shape := ⟨1, ![500]⟩
abbrev S12800000 : Shape := ⟨1, ![12800000]⟩
abbrev S_ : Shape := ⟨0, ![]⟩
abbrev S12800000x1 : Shape := ⟨2, ![12800000, 1]⟩
abbrev S200000x1 : Shape := ⟨2, ![200000, 1]⟩

abbrev nBuf : Space → Nat
  | .hbm => 40
  | .vmem => 0
  | .smem => 0
  | _ => 0

abbrev bufTy : (tb : Table) → Fin (tcTables nBuf tb) → BufTy
  | .hbm, ⟨0, _⟩ => ⟨S200000, .f32⟩
  | .hbm, ⟨1, _⟩ => ⟨S1000000, .f32⟩
  | .hbm, ⟨2, _⟩ => ⟨S500, .f32⟩
  | .hbm, ⟨3, _⟩ => ⟨S12800000, .i32⟩
  | .hbm, ⟨4, _⟩ => ⟨S12800000, .i32⟩
  | .hbm, ⟨5, _⟩ => ⟨S12800000, .i32⟩
  | .hbm, ⟨6, _⟩ => ⟨S200000, .i32⟩
  | .hbm, ⟨7, _⟩ => ⟨S_, .i32⟩
  | .hbm, ⟨8, _⟩ => ⟨S12800000, .i32⟩
  | .hbm, ⟨9, _⟩ => ⟨S12800000, .i1⟩
  | .hbm, ⟨10, _⟩ => ⟨S_, .i32⟩
  | .hbm, ⟨11, _⟩ => ⟨S12800000, .i32⟩
  | .hbm, ⟨12, _⟩ => ⟨S12800000, .i32⟩
  | .hbm, ⟨13, _⟩ => ⟨S12800000, .i32⟩
  | .hbm, ⟨14, _⟩ => ⟨S12800000x1, .i32⟩
  | .hbm, ⟨15, _⟩ => ⟨S12800000, .f32⟩
  | .hbm, ⟨16, _⟩ => ⟨S_, .i32⟩
  | .hbm, ⟨17, _⟩ => ⟨S12800000, .i32⟩
  | .hbm, ⟨18, _⟩ => ⟨S12800000, .i1⟩
  | .hbm, ⟨19, _⟩ => ⟨S_, .i32⟩
  | .hbm, ⟨20, _⟩ => ⟨S12800000, .i32⟩
  | .hbm, ⟨21, _⟩ => ⟨S12800000, .i32⟩
  | .hbm, ⟨22, _⟩ => ⟨S12800000, .i32⟩
  | .hbm, ⟨23, _⟩ => ⟨S12800000x1, .i32⟩
  | .hbm, ⟨24, _⟩ => ⟨S12800000, .f32⟩
  | .hbm, ⟨25, _⟩ => ⟨S12800000, .f32⟩
  | .hbm, ⟨26, _⟩ => ⟨S_, .f32⟩
  | .hbm, ⟨27, _⟩ => ⟨S200000, .f32⟩
  | .hbm, ⟨28, _⟩ => ⟨S12800000x1, .i32⟩
  | .hbm, ⟨29, _⟩ => ⟨S200000, .f32⟩
  | .hbm, ⟨30, _⟩ => ⟨S_, .i32⟩
  | .hbm, ⟨31, _⟩ => ⟨S200000, .i32⟩
  | .hbm, ⟨32, _⟩ => ⟨S200000, .i1⟩
  | .hbm, ⟨33, _⟩ => ⟨S_, .i32⟩
  | .hbm, ⟨34, _⟩ => ⟨S200000, .i32⟩
  | .hbm, ⟨35, _⟩ => ⟨S200000, .i32⟩
  | .hbm, ⟨36, _⟩ => ⟨S200000, .i32⟩
  | .hbm, ⟨37, _⟩ => ⟨S200000x1, .i32⟩
  | .hbm, ⟨38, _⟩ => ⟨S200000, .f32⟩
  | .hbm, ⟨39, _⟩ => ⟨S200000, .f32⟩
  | _, _ => ⟨S200000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_c_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_c_1 : Ref sig .tc := ⟨.hbm, 16, rfl⟩
abbrev main_v7 : Ref sig .tc := ⟨.hbm, 17, rfl⟩
abbrev main_v8 : Ref sig .tc := ⟨.hbm, 18, rfl⟩
abbrev main_c_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_c_3 : Ref sig .tc := ⟨.hbm, 30, rfl⟩
abbrev main_v18 : Ref sig .tc := ⟨.hbm, 31, rfl⟩
abbrev main_v19 : Ref sig .tc := ⟨.hbm, 32, rfl⟩
abbrev main_c_4 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]

class Facts₀ : Prop where
  bcast_S_S12800000 : S_.BroadcastsInDim S12800000 (![] : Fin 0 → Fin S12800000.rank)
  bcast_S12800000_S12800000x1_0 : S12800000.BroadcastsInDim S12800000x1 (![0] : Fin 1 → Fin S12800000x1.rank)
  bcast_S_S200000 : S_.BroadcastsInDim S200000 (![] : Fin 0 → Fin S200000.rank)
  bcast_S200000_S200000x1_0 : S200000.BroadcastsInDim S200000x1 (![0] : Fin 1 → Fin S200000x1.rank)
  gather_S1000000_S12800000x1_S12800000_n_0_n_n_0_1_1_wf : GatherDims.WF S1000000 S12800000x1 S12800000 [] [0] [] [0] [] 1 ![1]
  gather_S200000_S12800000x1_S12800000_n_0_n_n_0_1_1_wf : GatherDims.WF S200000 S12800000x1 S12800000 [] [0] [] [0] [] 1 ![1]
  scatter_S200000_S12800000x1_S12800000_n_0_0_1_wf : ScatterDims.WF S200000 S12800000x1 S12800000 [] [0] [0] 1
  gather_S500_S200000x1_S200000_n_0_n_n_0_1_1_wf : GatherDims.WF S500 S200000x1 S200000 [] [0] [] [0] [] 1 ![1]

variable [Facts₀]

def gather_S1000000_S12800000x1_S12800000_n_0_n_n_0_1_1 : GatherDims S1000000 S12800000x1 S12800000 where
  offsetDims := []
  collapsedSliceDims := [0]
  operandBatchingDims := []
  startIndicesBatchingDims := []
  startIndexMap := [0]
  indexVectorDim := 1
  sliceSizes := ![1]
  wf := gather_S1000000_S12800000x1_S12800000_n_0_n_n_0_1_1_wf
def gather_S200000_S12800000x1_S12800000_n_0_n_n_0_1_1 : GatherDims S200000 S12800000x1 S12800000 where
  offsetDims := []
  collapsedSliceDims := [0]
  operandBatchingDims := []
  startIndicesBatchingDims := []
  startIndexMap := [0]
  indexVectorDim := 1
  sliceSizes := ![1]
  wf := gather_S200000_S12800000x1_S12800000_n_0_n_n_0_1_1_wf
def scatter_S200000_S12800000x1_S12800000_n_0_0_1 : ScatterDims S200000 S12800000x1 S12800000 where
  updateWindowDims := []
  insertedWindowDims := [0]
  scatterDimsToOperandDims := [0]
  indexVectorDim := 1
  wf := scatter_S200000_S12800000x1_S12800000_n_0_0_1_wf
def gather_S500_S200000x1_S200000_n_0_n_n_0_1_1 : GatherDims S500 S200000x1 S200000 where
  offsetDims := []
  collapsedSliceDims := [0]
  operandBatchingDims := []
  startIndicesBatchingDims := []
  startIndexMap := [0]
  indexVectorDim := 1
  sliceSizes := ![1]
  wf := gather_S500_S200000x1_S200000_n_0_n_n_0_1_1_wf

class Facts : Prop extends Facts₀ where

variable [Facts]
-- ==== Proof.ProductLaw.lean ====
/-
  The one law that joins the two programs.  A reshape between two shapes of the same number of elements only
  renames indices: it is precomposition with the bijection that keeps an element's row-major position.  So a
  pointwise product taken AFTER reshaping both factors is the reshape of the pointwise product, and reshaping
  back returns the product of the original factors.  Nothing here depends on the float instance: no property of
  the multiplication is used, only that it is applied index by index.
-/
import Idealize.ShloMosaic.PureOps.Vector
import Idealize.ShloMosaic.Lib.Pipeline.Value

noncomputable section

namespace Cert.EdgeProduct

open Idealize.ShloMosaic

variable {F : FTy → Type} [FloatOps F]

/-- The pointwise product of two arrays of one shape, index by index. -/
abbrev prod {s : Shape} (a b : s.Idx → Elt F .f32) : s.Idx → Elt F .f32 := fun i => FloatOps.mulf (a i) (b i)

/-- Reshaping commutes with the pointwise product: both sides read the two factors at the one index the
    reshape sends `j` to. -/
theorem prod_shapeCast {s t : Shape} (a b : s.Idx → Elt F .f32) (h : s.ShapeCasts t) :
    prod (F := F) (shapeCast t a h) (shapeCast t b h) = shapeCast t (prod (F := F) a b) h := rfl

/-- Reshape both factors, multiply, reshape back: the product of the factors as they were. -/
theorem reshape_prod_reshape {s t : Shape} (a b : s.Idx → Elt F .f32) (h : s.ShapeCasts t) (h' : t.ShapeCasts s) :
    shapeCast s (prod (F := F) (shapeCast t a h) (shapeCast t b h)) h' = prod (F := F) a b := by
  rw [prod_shapeCast]
  exact shapeCast_shapeCast _ h h'

end Cert.EdgeProduct

end
-- ==== Proof.RegionOutput.lean ====
/-
  What the pallas_call leaves in its result array.  The grid has ten points; point `t` stages rows
  `10000·t … 10000·t + 9999` (all 128 lanes) of each of the two operands and of the result, and its body stores the
  pointwise product of the two staged blocks.  The three windows move together (one index map), so the block a
  point writes back is that same block of the pointwise product of the two WHOLE operand arrays; the ten row
  blocks tile the 100000 rows, so the result array ends holding that product everywhere.
-/
import proofs.«102229_j35691178230263_2_alg».proof.Proof.Gen.KernelIdeal.Frame
import proofs.«102229_j35691178230263_2_alg».proof.Proof.ProductLaw
import Idealize.ShloMosaic.Lib.Pipeline.Value

set_option maxRecDepth 16384

noncomputable section

namespace Cert.KernelIdeal.RegionOutput

open Cert.KernelIdeal Cert.KernelIdeal.Gen Cert.EdgeProduct
open Idealize.ShloMosaic Idealize.ShloMosaic.TcCoe Idealize.SL.Sem
open Idealize.ShloMosaic.Pipeline (Dat Cfg Window)

variable {F : FTy → Type} [FloatOps F]
variable (m : (ℓ : Loc nD τ sig) → Buf (Elt F) ℓ)

/-- The body's loads and its store go through the whole staged block: offsets zero on both axes. -/
theorem zero_offsets : (![0, 0] : Fin 2 → Nat) = fun _ => 0 := funext fun a => by fin_cases a <;> rfl

/-- The body's stored value is the pointwise product of the two blocks it loaded (its two shape casts are
    to the shape the blocks already have). -/
theorem payload_eq (x0 x1 : Vec F S10000x128 .f32) : k0_pay1 x0 x1 = prod (F := F) x0 x1 := by
  unfold k0_pay1
  rw [shapeCast_self, shapeCast_self]
  rfl

/-- The three index maps, decided over the ten points: both operands' blocks sit where the result's block
    sits, which is row block `t`, lane block `0`. -/
theorem index_facts : ∀ t : Fin cfg0.N, win0_0.index t (0 : Fin 2) = win0_2.index t (0 : Fin 2)
    ∧ win0_0.index t (1 : Fin 2) = win0_2.index t (1 : Fin 2)
    ∧ win0_1.index t (0 : Fin 2) = win0_2.index t (0 : Fin 2)
    ∧ win0_1.index t (1 : Fin 2) = win0_2.index t (1 : Fin 2)
    ∧ win0_2.index t (0 : Fin 2) ≤ 9
    ∧ win0_2.index t (1 : Fin 2) = 0 :=
  (by decide +kernel : ∀ t : Fin grid0.N, _)

/-- Every row block is some point's. -/
theorem index_onto : ∀ q : Fin 10, ∃ t : Fin cfg0.N, win0_2.index t = ![q.val, 0] :=
  (by decide +kernel : ∀ q : Fin 10, ∃ t : Fin grid0.N, win0_2.index t = ![q.val, 0])

/-- What point `t` writes back is block `t` of the pointwise product of the two operand arrays as the region
    finds them. -/
theorem flushed_eq (c : Dev nD) (t : Fin cfg0.N) :
    (dats m 0 c).flushed 2 t
      = ((cfg0.win 2).blk t).view.read (Elt F) (prod (F := F) (V m c main_v14) (V m c main_v15)) := by
  show (cfg0.win 2).cut (grid0.coords t) ((dats m 0 c).after 2 t) = _
  rw [after0_2]
  unfold out0_2
  rw [View.canon_unit_zero zero_offsets]
  simp only [View.ld_unit_zero (S := S10000x128) zero_offsets]
  rw [payload_eq]
  obtain ⟨e0, e1, e2, e3, e4, e5⟩ := index_facts t
  funext j
  show FloatOps.mulf (V m c main_v14 (((cfg0.win 0).blk t).view.emb j)) (V m c main_v15 (((cfg0.win 1).blk t).view.emb j))
    = FloatOps.mulf (V m c main_v14 (((cfg0.win 2).blk t).view.emb j)) (V m c main_v15 (((cfg0.win 2).blk t).view.emb j))
  have h0 : ((cfg0.win 0).blk t).view.emb j = ((cfg0.win 2).blk t).view.emb j := by
    funext a; apply Fin.ext
    match a with
    | ⟨0, _⟩ => show win0_0.index t (0 : Fin 2) * 10000 + 1 * (j 0).val = win0_2.index t (0 : Fin 2) * 10000 + 1 * (j 0).val; omega
    | ⟨1, _⟩ => show win0_0.index t (1 : Fin 2) * 128 + 1 * (j 1).val = win0_2.index t (1 : Fin 2) * 128 + 1 * (j 1).val; omega
  have h1 : ((cfg0.win 1).blk t).view.emb j = ((cfg0.win 2).blk t).view.emb j := by
    funext a; apply Fin.ext
    match a with
    | ⟨0, _⟩ => show win0_1.index t (0 : Fin 2) * 10000 + 1 * (j 0).val = win0_2.index t (0 : Fin 2) * 10000 + 1 * (j 0).val; omega
    | ⟨1, _⟩ => show win0_1.index t (1 : Fin 2) * 128 + 1 * (j 1).val = win0_2.index t (1 : Fin 2) * 128 + 1 * (j 1).val; omega
  rw [h0, h1]

/-- An index of the result array is in point `t`'s block iff each coordinate is in the block's range. -/
theorem mem_block (t : Fin cfg0.N) (i : S100000x128.Idx) :
    i ∈ ((cfg0.win 2).blk t).view.set ↔ ∀ a : Fin 2, win0_2.index t a * S10000x128.size a ≤ (i a).val ∧ (i a).val < win0_2.index t a * S10000x128.size a + S10000x128.size a := by
  show i ∈ ((View.whole main_v16).slice (win0_2.rect t)).set ↔ _
  rw [View.set_slice_whole, Rect.mem_set_unit]
  exact Iff.rfl

/-- The ten row blocks tile the array: row `r` is in the block of the point whose row block is `r / 10000`. -/
theorem covered (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  obtain ⟨t, ht⟩ := index_onto ⟨(i 0).val / 10000, by omega⟩
  have q0 : win0_2.index t (0 : Fin 2) = (i 0).val / 10000 := congrFun ht 0
  have q1 : win0_2.index t (1 : Fin 2) = 0 := congrFun ht 1
  refine ⟨t, flush0_2 t, ?_⟩
  rw [mem_block]
  intro a
  match a with
  | ⟨0, _⟩ => show win0_2.index t (0 : Fin 2) * 10000 ≤ (i 0).val ∧ (i 0).val < win0_2.index t (0 : Fin 2) * 10000 + 10000; omega
  | ⟨1, _⟩ => show win0_2.index t (1 : Fin 2) * 128 ≤ (i 1).val ∧ (i 1).val < win0_2.index t (1 : Fin 2) * 128 + 128; omega

/-- The result array after the region: the pointwise product of the two operand arrays, everywhere. -/
theorem array_eq (c : Dev nD) :
    (dats m 0 c).arrAt 2 cfg0.N = prod (F := F) (V m c main_v14) (V m c main_v15) :=
  (dats m 0 c).arrAt_eq_of_cover 2 _ (fun t _ => flushed_eq m c t) covered

end Cert.KernelIdeal.RegionOutput

end
-- ==== Proof.HostSides.lean ====
/-
  The host operations around the pallas_call, as functions of the argument arrays.
  BEFORE the region: each of the two index arrays is normalised (a negative index counts from the end: add the
  table's length), the weight table and the node values are gathered at them — 12800000 edge weights and 12800000
  source values — and both are reshaped to [100000, 128], which is what the region's two operand windows stage.
  AFTER the region: the result array is reshaped back to [12800000], scatter-added into a zero array of 200000
  slots at the destination indices, and the bias table gathered at the normalised node labels is added.  That tail
  is the same sequence in the reference, applied there to the product of the two gathers; it is kept as ONE
  definition `tail` of the messages and is never opened.
-/
import proofs.«102229_j35691178230263_2_alg».proof.Proof.Gen.KernelIdeal.Frame
import proofs.«102229_j35691178230263_2_alg».proof.Proof.RegionOutput
import Idealize.ShloMosaic.Lib.StableHlo.Run
import Idealize.ShloMosaic.Lib.Pipeline.Value

set_option maxRecDepth 16384

noncomputable section

namespace Cert.KernelIdeal.HostSides

open Cert.KernelIdeal Cert.KernelIdeal.Gen Cert.EdgeProduct
open Idealize.ShloMosaic Idealize.ShloMosaic.TcCoe Idealize.SL.Sem Idealize.ShloMosaic.StableHlo

variable {F : FTy → Type} [FloatOps F]

/-- The edge weights: the weight table gathered at the normalised weight indices. -/
def weights (W : S1000000.Idx → Elt F .f32) (widx : S12800000.Idx → Elt F .i32) : S12800000.Idx → Elt F .f32 :=
  Host.gather gather_S1000000_S12800000x1_S12800000_n_0_n_n_0_1_1 W
    (broadcastInDim S12800000x1 ![0] bcast_S12800000_S12800000x1_0
      (select (cmpi .slt widx (broadcastInDim S12800000 ![] bcast_S_S12800000 (constantI S_ 32 0#32)))
        (addi widx (broadcastInDim S12800000 ![] bcast_S_S12800000 (constantI S_ 32 1000000#32))) widx))

/-- The source values: the node values gathered at the normalised source indices. -/
def sources (x : S200000.Idx → Elt F .f32) (src : S12800000.Idx → Elt F .i32) : S12800000.Idx → Elt F .f32 :=
  Host.gather gather_S200000_S12800000x1_S12800000_n_0_n_n_0_1_1 x
    (broadcastInDim S12800000x1 ![0] bcast_S12800000_S12800000x1_0
      (select (cmpi .slt src (broadcastInDim S12800000 ![] bcast_S_S12800000 (constantI S_ 32 0#32)))
        (addi src (broadcastInDim S12800000 ![] bcast_S_S12800000 (constantI S_ 32 200000#32))) src))

/-- What follows the messages: scatter-add them into 200000 zeroed slots at the destination indices, then add
    the bias table gathered at the normalised node labels. -/
def tail (msgs : S12800000.Idx → Elt F .f32) (dst : S12800000.Idx → Elt F .i32) (b : S500.Idx → Elt F .f32)
    (lab : S200000.Idx → Elt F .i32) : S200000.Idx → Elt F .f32 :=
  addf
    (Host.scatterAdd scatter_S200000_S12800000x1_S12800000_n_0_0_1
      (broadcastInDim S200000 ![] bcast_S_S200000 (constant S_ .f32 0x00000000#32))
      (broadcastInDim S12800000x1 ![0] bcast_S12800000_S12800000x1_0 dst) msgs)
    (Host.gather gather_S500_S200000x1_S200000_n_0_n_n_0_1_1 b
      (broadcastInDim S200000x1 ![0] bcast_S200000_S200000x1_0
        (select (cmpi .slt lab (broadcastInDim S200000 ![] bcast_S_S200000 (constantI S_ 32 0#32)))
          (addi lab (broadcastInDim S200000 ![] bcast_S_S200000 (constantI S_ 32 500#32))) lab)))

variable (m : (ℓ : Loc nD τ sig) → Buf (Elt F) ℓ)

/-- The region's first operand array, as it finds it: the edge weights reshaped to [100000, 128]. -/
theorem operand_weights (c : Dev nD) :
    (V m c main_v14 : S100000x128.Idx → Elt F .f32)
      = shapeCast S100000x128 (weights (F := F) (m ((c.tc : Thread nD τ).loc main_arg1)) (m ((c.tc : Thread nD τ).loc main_arg5)))
          shapeCasts_S12800000_S100000x128 := by
  show StableHlo.after hostOps0 (fun b => m (c, b)) (Proc.devRef .tc main_v14) = _
  after_results
  rfl

/-- The region's second operand array: the source values reshaped to [100000, 128]. -/
theorem operand_sources (c : Dev nD) :
    (V m c main_v15 : S100000x128.Idx → Elt F .f32)
      = shapeCast S100000x128 (sources (F := F) (m ((c.tc : Thread nD τ).loc main_arg0)) (m ((c.tc : Thread nD τ).loc main_arg3)))
          shapeCasts_S12800000_S100000x128 := by
  show StableHlo.after hostOps0 (fun b => m (c, b)) (Proc.devRef .tc main_v15) = _
  after_results
  rfl

/-- The lines after the region, run from ANY contents of the buffers: the result is `tail` of the region's
    result array reshaped to [12800000] and of three argument arrays as those contents have them. -/
theorem tail_of_contents (Fv : Valuation τ sig (Elt F)) :
    StableHlo.after hostOps1 Fv (Proc.devRef .tc main_v28)
      = tail (F := F) (shapeCast S12800000 (Fv (Proc.devRef .tc main_v16)) shapeCasts_S100000x128_S12800000)
          (Fv (Proc.devRef .tc main_arg4)) (Fv (Proc.devRef .tc main_arg2)) (Fv (Proc.devRef .tc main_arg6)) := by
  after_results
  rfl

/-- THE KERNEL'S RESULT, as the frame run's post states it: `tail` of the product of the edge weights and the
    source values.  The region's result array is the product of the two reshaped gathers (the blocks tile it);
    reshaping that back is the product of the gathers themselves; the three argument arrays the tail reads are no
    array of the region and no host line writes them, so they are as launched. -/
theorem result_eq (c : Dev nD) :
    Pipeline.afterTail₀ cfgs (dats m) 0 (V0 m) [hostOps1] c main_v28
      = tail (F := F)
          (prod (F := F) (weights (F := F) (m ((c.tc : Thread nD τ).loc main_arg1)) (m ((c.tc : Thread nD τ).loc main_arg5)))
            (sources (F := F) (m ((c.tc : Thread nD τ).loc main_arg0)) (m ((c.tc : Thread nD τ).loc main_arg3))))
          (m ((c.tc : Thread nD τ).loc main_arg4)) (m ((c.tc : Thread nD τ).loc main_arg2)) (m ((c.tc : Thread nD τ).loc main_arg6)) := by
  unfold Pipeline.afterTail₀
  simp only [List.flatten_cons, List.flatten_nil, List.append_nil]
  rw [tail_of_contents]
  have hA : Pipeline.withArrays (cfgs 0).spec c (V0 m c) (fun w => (dats m 0 c).arrAt w (cfgs 0).N) (Proc.devRef .tc main_v16)
      = prod (F := F) (V m c main_v14) (V m c main_v15) :=
    (Pipeline.withArrays_arr spec0 launch0.win.arr_inj c _ _ 2).trans (RegionOutput.array_eq m c)
  have h4 : Pipeline.withArrays (cfgs 0).spec c (V0 m c) (fun w => (dats m 0 c).arrAt w (cfgs 0).N) (Proc.devRef .tc main_arg4)
      = m ((c.tc : Thread nD τ).loc main_arg4) :=
    (Pipeline.withArrays_of_ne _ c (V0 m c) _ main_arg4 (by exact (by decide : ∀ w, Pipeline.arrRef spec0 w ≠ main_arg4))).trans (V_main_arg4 m c)
  have h2 : Pipeline.withArrays (cfgs 0).spec c (V0 m c) (fun w => (dats m 0 c).arrAt w (cfgs 0).N) (Proc.devRef .tc main_arg2)
      = m ((c.tc : Thread nD τ).loc main_arg2) :=
    (Pipeline.withArrays_of_ne _ c (V0 m c) _ main_arg2 (by exact (by decide : ∀ w, Pipeline.arrRef spec0 w ≠ main_arg2))).trans (V_main_arg2 m c)
  have h6 : Pipeline.withArrays (cfgs 0).spec c (V0 m c) (fun w => (dats m 0 c).arrAt w (cfgs 0).N) (Proc.devRef .tc main_arg6)
      = m ((c.tc : Thread nD τ).loc main_arg6) :=
    (Pipeline.withArrays_of_ne _ c (V0 m c) _ main_arg6 (by exact (by decide : ∀ w, Pipeline.arrRef spec0 w ≠ main_arg6))).trans (V_main_arg6 m c)
  rw [hA, h4, h2, h6, operand_weights, operand_sources]
  exact congrArg (fun msgs => tail (F := F) msgs _ _ _)
    (reshape_prod_reshape (F := F) _ _ shapeCasts_S12800000_S100000x128 shapeCasts_S100000x128_S12800000)

end Cert.KernelIdeal.HostSides

end
-- ==== Proof.KernelResult.lean ====
/-
  The idealized kernel's run, with its result named.  The frame run ends with every buffer that is no array of the
  region at what the lines after the region leave in it; the program's result is such a buffer, and those lines
  leave in it `tail` of the product of the two gathers (HostSides).  The seven argument arrays are neither staged
  nor written by any host line, so they end as launched.
-/
import proofs.«102229_j35691178230263_2_alg».proof.Proof.Gen.KernelIdeal.Frame
import proofs.«102229_j35691178230263_2_alg».proof.Proof.HostSides

set_option maxRecDepth 16384

noncomputable section

namespace Cert.KernelIdeal.Result

open Cert.KernelIdeal Cert.KernelIdeal.Gen Cert.KernelIdeal.HostSides Cert.EdgeProduct
open Idealize.ShloMosaic Idealize.ShloMosaic.TcCoe Idealize.SL.Sem

variable {F : FTy → Type} [FloatOps F]

/-- The result as one function of the seven argument arrays: gather the edge weights and the source values,
    multiply them edge by edge, scatter-add over the destinations, add the gathered bias. -/
def value (x : S200000.Idx → Elt F .f32) (W : S1000000.Idx → Elt F .f32) (b : S500.Idx → Elt F .f32)
    (src dst widx : S12800000.Idx → Elt F .i32) (lab : S200000.Idx → Elt F .i32) : S200000.Idx → Elt F .f32 :=
  tail (F := F) (prod (F := F) (weights (F := F) W widx) (sources (F := F) x src)) dst b lab

variable (m : (ℓ : Loc nD τ sig) → Buf (Elt F) ℓ) (ρ : Dev nD → PrngReg)

/-- Every weakly fair execution of the idealized kernel terminates with the result buffer at `value` of the
    argument arrays as launched, and the argument arrays unchanged. -/
theorem run : θ_run defs (onTc (τ := τ) (main (F := F))) ⟨m, fun _ => 0, ρ⟩ (fun r => ∀ c : Dev nD,
      r.2.mem ((c.tc : Thread nD τ).loc main_v28)
        = value (F := F) (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨((h c).2 main_v28 (Pipeline.mem_restRefs_of main_v28 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c)⟩)
    (run_main m ρ)

end Cert.KernelIdeal.Result

end
-- ==== Proof.lean ====
/-
  A graph-convolution layer: for every edge, the weight table gathered at the edge's weight index times the node
  value gathered at the edge's source; the products scatter-added over the edges' destinations; plus the bias table
  gathered at each node's label.

  The kernel and the reference are the same sequence of host operations — the same index normalisations, the same
  three gathers, the same scatter-add into zeros, the same final addition, with the same integer and float literals
  — except for the 12800000 products.  The reference multiplies the two gathered arrays in one operation.  The
  kernel reshapes both to [100000, 128], multiplies them in a pallas_call over ten blocks of 10000 rows, and
  reshapes the result back.  A reshape only renames indices, the ten row blocks tile the array, and the body
  multiplies index by index, so the array that reaches the scatter-add is the same product of the same two gathers
  (Proof/ProductLaw.lean, Proof/RegionOutput.lean, Proof/HostSides.lean).  No property of the multiplication or of
  the extended reals is used, and finiteness of the inputs is not needed: the two results are one term.

  The ideal pass rewrote nothing, so `preserves` is trivial; the two kernel frames are the generated ones, and the
  reference's frame is its generated run with the result dropped.
-/
import proofs.«102229_j35691178230263_2_alg».proof.Defs
import proofs.«102229_j35691178230263_2_alg».proof.Proof.Gen.Kernel
import proofs.«102229_j35691178230263_2_alg».proof.Proof.Gen.Kernel.Skeleton
import proofs.«102229_j35691178230263_2_alg».proof.Proof.Gen.Kernel.Launch
import proofs.«102229_j35691178230263_2_alg».proof.Proof.Gen.Kernel.Points
import proofs.«102229_j35691178230263_2_alg».proof.Proof.Gen.Kernel.Frame
import proofs.«102229_j35691178230263_2_alg».proof.Proof.Gen.KernelIdeal
import proofs.«102229_j35691178230263_2_alg».proof.Proof.Gen.KernelIdeal.Skeleton
import proofs.«102229_j35691178230263_2_alg».proof.Proof.Gen.KernelIdeal.Launch
import proofs.«102229_j35691178230263_2_alg».proof.Proof.Gen.KernelIdeal.Points
import proofs.«102229_j35691178230263_2_alg».proof.Proof.Gen.KernelIdeal.Frame
import proofs.«102229_j35691178230263_2_alg».proof.Proof.Gen.ReferenceIdeal
import proofs.«102229_j35691178230263_2_alg».proof.Proof.Gen.Pre_finite_inputs
import proofs.«102229_j35691178230263_2_alg».proof.Proof.Gen.ReferenceIdeal.Run
import proofs.«102229_j35691178230263_2_alg».proof.Proof.KernelResult
import Idealize.ShloMosaic.Adequacy
import Idealize.ShloMosaic.Init

set_option maxRecDepth 16384

noncomputable section

namespace Cert.Proof

open Idealize.ShloMosaic Idealize.ShloMosaic.TcCoe Idealize.SL.Sem

section Reference

open Cert.ReferenceIdeal Cert.ReferenceIdeal.Facts₀

/-- The reference's result term is the kernel's `value` of the same seven arrays: the reference's one
    multiplication of the two gathers is the product edge by edge, and everything around it is the same operations
    with the same shape records (the two programs state their shape facts separately; the records hold the same
    data). -/
theorem reference_value (x : S200000.Idx → Elt Ideal .f32) (W : S1000000.Idx → Elt Ideal .f32) (b : S500.Idx → Elt Ideal .f32)
    (src dst widx : S12800000.Idx → Elt Ideal .i32) (lab : S200000.Idx → Elt Ideal .i32) :
    addf (Host.scatterAdd scatter_S200000_S12800000x1_S12800000_n_0_0_1
        (broadcastInDim S200000 ![] bcast_S_S200000 (constant (F := Ideal) S_ .f32 0x00000000#32))
        (broadcastInDim S12800000x1 ![0] bcast_S12800000_S12800000x1_0 dst)
        (mulf
          (Host.gather gather_S1000000_S12800000x1_S12800000_n_0_n_n_0_1_1 W
            (broadcastInDim S12800000x1 ![0] bcast_S12800000_S12800000x1_0
              (select (cmpi .slt widx (broadcastInDim S12800000 ![] bcast_S_S12800000 (constantI S_ 32 0#32)))
                (addi widx (broadcastInDim S12800000 ![] bcast_S_S12800000 (constantI S_ 32 1000000#32))) widx)))
          (Host.gather gather_S200000_S12800000x1_S12800000_n_0_n_n_0_1_1 x
            (broadcastInDim S12800000x1 ![0] bcast_S12800000_S12800000x1_0
              (select (cmpi .slt src (broadcastInDim S12800000 ![] bcast_S_S12800000 (constantI S_ 32 0#32)))
                (addi src (broadcastInDim S12800000 ![] bcast_S_S12800000 (constantI S_ 32 200000#32))) src)))))
      (Host.gather gather_S500_S200000x1_S200000_n_0_n_n_0_1_1 b
        (broadcastInDim S200000x1 ![0] bcast_S200000_S200000x1_0
          (select (cmpi .slt lab (broadcastInDim S200000 ![] bcast_S_S200000 (constantI S_ 32 0#32)))
            (addi lab (broadcastInDim S200000 ![] bcast_S_S200000 (constantI S_ 32 500#32))) lab)))
    = Cert.KernelIdeal.Result.value (F := Ideal) x W b src dst widx lab := rfl

end Reference

theorem frame_kernel : Cert.frame_Kernel := fun m ρ _ => Cert.Kernel.Gen.frame m ρ
theorem frame_kernel_ideal : Cert.frame_KernelIdeal := fun m ρ _ => Cert.KernelIdeal.Gen.frame m ρ
theorem frame_reference_ideal : Cert.frame_ReferenceIdeal := fun m ρ _ =>
  (θ_run Cert.ReferenceIdeal.defs _ _).mono (fun _ h c => (h c).2) (Cert.ReferenceIdeal.Value.run (F := Ideal) m ρ)

/-- From memories agreeing on the seven arguments both programs end with the result at `value` of those arguments. -/
theorem algebraic : Cert.algebraic_KernelIdeal_ReferenceIdeal := by
  intro m ρ m' ρ' _ hagree
  refine ⟨_, Cert.KernelIdeal.Result.run (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6⟩ := hagree c
  rw [a0, a1, a2, a3, a4, a5, a6]
  exact reference_value _ _ _ _ _ _ _

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, trivial, algebraic⟩

end Cert.Proof

end
